-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x10 : Shape := ⟨2, ![100000, 10]⟩
abbrev S10000x10 : Shape := ⟨2, ![10000, 10]⟩
abbrev S1700000x10 : Shape := ⟨2, ![1700000, 10]⟩
abbrev S1x10 : Shape := ⟨2, ![1, 10]⟩
abbrev S512x10 : Shape := ⟨2, ![512, 10]⟩
abbrev S100000x1 : Shape := ⟨2, ![100000, 1]⟩
abbrev S512 : Shape := ⟨1, ![512]⟩
abbrev S512x1 : Shape := ⟨2, ![512, 1]⟩

abbrev nBuf : Space → Nat
  | .hbm => 153
  | .vmem => 23
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S100000x64, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x64, .f32⟩
  | 80 => ⟨S1700000x64, .f32⟩
  | 81 => ⟨S_, .f32⟩
  | 82 => ⟨S100000x64, .f32⟩
  | 83 => ⟨S1700000x1, .i32⟩
  | 84 => ⟨S100000x64, .f32⟩
  | 85 => ⟨S1x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x64, .f32⟩
  | 97 => ⟨S1700000x64, .f32⟩
  | 98 => ⟨S_, .f32⟩
  | 99 => ⟨S100000x64, .f32⟩
  | 100 => ⟨S1700000x1, .i32⟩
  | 101 => ⟨S100000x64, .f32⟩
  | 102 => ⟨S1x64, .f32⟩
  | 103 => ⟨S100000x10, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x10, .f32⟩
  | 113 => ⟨S1700000x10, .f32⟩
  | 114 => ⟨S1700000x10, .f32⟩
  | 115 => ⟨S_, .f32⟩
  | 116 => ⟨S100000x10, .f32⟩
  | 117 => ⟨S1700000x1, .i32⟩
  | 118 => ⟨S100000x10, .f32⟩
  | 119 => ⟨S1x10, .f32⟩
  | 120 => ⟨S100000x10, .f32⟩
  | 121 => ⟨S100000x10, .f32⟩
  | 122 => ⟨S_, .f32⟩
  | 123 => ⟨S512x10, .f32⟩
  | 124 => ⟨S100000x1, .i32⟩
  | 125 => ⟨S512x10, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S512, .f32⟩
  | 2 => ⟨S100000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x10, .f32⟩
  | 9 => ⟨S512x10, .f32⟩
  | 10 => ⟨S_, .f32⟩
  | 11 => ⟨S512, .f32⟩
  | 12 => ⟨S_, .f32⟩
  | 13 => ⟨S512, .f32⟩
  | 14 => ⟨S512, .f32⟩
  | 15 => ⟨S512x1, .f32⟩
  | 16 => ⟨S512x10, .f32⟩
  | 17 => ⟨S512x10, .f32⟩
  | 18 => ⟨S512x10, .f32⟩
  | 19 => ⟨S_, .f32⟩
  | 20 => ⟨S512, .f32⟩
  | 21 => ⟨S512x1, .f32⟩
  | 22 => ⟨S512x1, .f32⟩
  | 23 => ⟨S512x10, .f32⟩
  | 24 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x10, .f32⟩
  | .local _ .vmem, ⟨21, _⟩ => ⟨S10000x10, .f32⟩
  | .local _ .vmem, ⟨22, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_cst_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_call1_cst : Ref sig .tc := ⟨.hbm, 138, rfl⟩
abbrev main_call1_v0 : Ref sig .tc := ⟨.hbm, 139, rfl⟩
abbrev main_call1_cst_0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_cst_1 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_v101 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x10_S64x10_0_0 : ∀ a, (![0, 0] : Fin 2 → Nat) a + S64x10.size a ≤ S64x10.size a
  h_S64x10 : 0 < S64x10.numel
  inb_S10000x10_S10000x10_0_0 : ∀ a, (![0, 0] : Fin 2 → Nat) a + S10000x10.size a ≤ S10000x10.size a
  h_S10000x10 : 0 < S10000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S512x10 : S_.BroadcastsInDim S512x10 (![] : Fin 0 → Fin S512x10.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  reducesTo_S512x10_S512_d1 : S512x10.ReducesTo [1] S512
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  scatter_S512x10_S100000x1_S100000x10_1_0_0_1_wf : ScatterDims.WF S512x10 S100000x1 S100000x10 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x10.size a ≤ S100000x10.size a
  hwx3_3 : ∀ i : grid3.Coords, EltTy.bits .f32 = 32 ∨ (Rect.block (s := S100000x10) S10000x10.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def scatter_S512x10_S100000x1_S100000x10_1_0_0_1 : ScatterDims S512x10 S100000x1 S100000x10 where
  updateWindowDims := [1]
  insertedWindowDims := [0]
  scatterDimsToOperandDims := [0]
  indexVectorDim := 1
  wf := scatter_S512x10_S100000x1_S100000x10_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S10000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x10 : Shape := ⟨2, ![100000, 10]⟩
abbrev S1700000x10 : Shape := ⟨2, ![1700000, 10]⟩
abbrev S1x10 : Shape := ⟨2, ![1, 10]⟩
abbrev S512x10 : Shape := ⟨2, ![512, 10]⟩
abbrev S100000x1 : Shape := ⟨2, ![100000, 1]⟩
abbrev S512 : Shape := ⟨1, ![512]⟩
abbrev S512x1 : Shape := ⟨2, ![512, 1]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x10, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000x10, .f32⟩
  | 2 => ⟨S1700000x1, .f32⟩
  | 3 => ⟨S1700000x10, .f32⟩
  | 4 => ⟨S1700000x10, .f32⟩
  | 5 => ⟨S_, .f32⟩
  | 6 => ⟨S100000x10, .f32⟩
  | 7 => ⟨S1700000x1, .i32⟩
  | 8 => ⟨S100000x10, .f32⟩
  | 9 => ⟨S1x10, .f32⟩
  | 10 => ⟨S100000x10, .f32⟩
  | 11 => ⟨S100000x10, .f32⟩
  | 12 => ⟨S_, .f32⟩
  | 13 => ⟨S512x10, .f32⟩
  | 14 => ⟨S100000x1, .i32⟩
  | 15 => ⟨S512x10, .f32⟩
  | 16 => ⟨S_, .f32⟩
  | 17 => ⟨S100000, .f32⟩
  | 18 => ⟨S_, .f32⟩
  | 19 => ⟨S512, .f32⟩
  | 20 => ⟨S100000x1, .i32⟩
  | 21 => ⟨S512, .f32⟩
  | 22 => ⟨S_, .f32⟩
  | 23 => ⟨S512, .f32⟩
  | 24 => ⟨S512, .f32⟩
  | 25 => ⟨S512x1, .f32⟩
  | 26 => ⟨S512x10, .f32⟩
  | 27 => ⟨S512x10, .f32⟩
  | 28 => ⟨S_, .f32⟩
  | 29 => ⟨S512, .f32⟩
  | 30 => ⟨S_, .f32⟩
  | 31 => ⟨S512, .f32⟩
  | 32 => ⟨S512, .f32⟩
  | 33 => ⟨S512x1, .f32⟩
  | 34 => ⟨S512x10, .f32⟩
  | 35 => ⟨S512x10, .f32⟩
  | 36 => ⟨S512x10, .f32⟩
  | 37 => ⟨S_, .f32⟩
  | 38 => ⟨S512, .f32⟩
  | 39 => ⟨S512x1, .f32⟩
  | 40 => ⟨S512x1, .f32⟩
  | 41 => ⟨S512x10, .f32⟩
  | 42 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_c_15 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_19 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call4_cst : Ref sig .tc := ⟨.hbm, 156, rfl⟩
abbrev main_call4_v0 : Ref sig .tc := ⟨.hbm, 157, rfl⟩
abbrev main_call4_cst_0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_cst_1 : Ref sig .tc := ⟨.hbm, 165, rfl⟩
abbrev main_call4_v7 : Ref sig .tc := ⟨.hbm, 166, rfl⟩
abbrev main_call4_v8 : Ref sig .tc := ⟨.hbm, 167, rfl⟩
abbrev main_call4_v9 : Ref sig .tc := ⟨.hbm, 168, rfl⟩
abbrev main_call4_v10 : Ref sig .tc := ⟨.hbm, 169, rfl⟩
abbrev main_v113 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S512x10 : S_.BroadcastsInDim S512x10 (![] : Fin 0 → Fin S512x10.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  reducesTo_S512x10_S512_d1 : S512x10.ReducesTo [1] S512
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  scatter_S512x10_S100000x1_S100000x10_1_0_0_1_wf : ScatterDims.WF S512x10 S100000x1 S100000x10 [1] [0] [0] 1
  scatter_S512_S100000x1_S100000_n_0_0_1_wf : ScatterDims.WF S512 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def scatter_S512x10_S100000x1_S100000x10_1_0_0_1 : ScatterDims S512x10 S100000x1 S100000x10 where
  updateWindowDims := [1]
  insertedWindowDims := [0]
  scatterDimsToOperandDims := [0]
  indexVectorDim := 1
  wf := scatter_S512x10_S100000x1_S100000x10_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KernelRun.lean ====
/-
  The idealized kernel's run, with its result named.

  @main is five stretches of host operations around four kernel launches. The buffer contents at each boundary are a
  fold from the launch memory: a stretch rewrites the buffers its operations write, a launch leaves its arrays at what
  its write-backs leave and every other buffer as it was. Every weakly fair execution terminates without a fault in a
  state whose unscoped buffers hold the last boundary's contents; so the result buffer ends at the last boundary's
  contents there, and each argument ends as launched.
-/
import proofs.«169848_j86457691668576_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.RunValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibStripDot.lean ====
/-
  A matrix product computed one strip of rows at a time.

  Row r of a product X · W depends only on row r of X. So if a block xb holds the rows o, o+1, …, o+m−1 of X
  and wb is all of W, the (p, q) entry of the block product xb · wb — as a tpu.matmul into the zero accumulator
  computes it — is the (o+p, q) entry of the whole product X · W — as the host's dot_general computes it: both
  are the sum over k of X (o+p, k) · W (k, q) on the extended reals. No finiteness is needed: the two sums have
  the same terms.
-/
import proofs.«169848_j86457691668576_1_alg».proof.Proof.LibPlainDot

noncomputable section

open scoped BigOperators

namespace Idealize.ShloMosaic.StripDot

open Idealize.ShloMosaic Idealize.ShloMosaic.ValueIdx

variable {m M K N : Nat}

/-- The block product of a strip of rows is that strip of the whole product, entry by entry. -/
theorem matmul_strip_apply {φ₁ φ₂ : FTy} (prec prec' : Option ContractPrecision) (sched : HostSchedule)
    (X : FVec Ideal ⟨2, ![M, K]⟩ φ₁) (W : FVec Ideal ⟨2, ![K, N]⟩ φ₂)
    (xb : FVec Ideal ⟨2, ![m, K]⟩ φ₁) (wb : FVec Ideal ⟨2, ![K, N]⟩ φ₂)
    (o : Nat) (ho : ∀ p : Fin m, o + p.val < M)
    (hx : ∀ (p : Fin m) (k : Fin K), xb (ix2 p k) = X (ix2 ⟨o + p.val, ho p⟩ k))
    (hw : ∀ (k : Fin K) (q : Fin N), wb (ix2 k q) = W (ix2 k q)) (p : Fin m) (q : Fin N) :
    FloatOps.matmul (DotDims.plain m K N) prec xb wb (constant ⟨2, ![m, N]⟩ .f32 0x00000000#32) (ix2 p q)
      = FloatOps.dotGeneral (DotDims.plain M K N) prec' sched X W (ix2 ⟨o + p.val, ho p⟩ q) := by
  rw [PlainDot.matmul_zero_apply, PlainDot.dotGeneral_apply]
  exact Finset.sum_congr rfl fun k _ => by rw [hx p k, hw k q]

end Idealize.ShloMosaic.StripDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibBiasStrip.lean ====
/-
  A bias row added to a strip of rows, and the sum clamped from below, read at an index.

  Let A be an M × b matrix and B a 1 × b row. On the whole matrix the host adds the row spread over the M rows and
  clamps the sum from below at a scalar; on a strip holding rows o, o+1, …, o+m−1 of A the vector operations add the
  same row spread over the m rows of the strip and clamp at the same scalar. Entry (p, q) of the strip's result is
  entry (o+p, q) of the whole result: both are max (A (o+p, q) + B (0, q)) z, respectively A (o+p, q) + B (0, q)
  without the clamp. Addition and maximum are taken entry by entry, so nothing about finiteness is needed.
-/
import Idealize.ShloMosaic.Lib.Pipeline.Value
import Idealize.ShloMosaic.Lib.ValueIdx
import proofs.«169848_j86457691668576_1_alg».proof.Proof.LibRowSpread

noncomputable section

namespace Idealize.ShloMosaic.BiasStrip

open Idealize.ShloMosaic Idealize.ShloMosaic.ValueIdx

variable {m M b : Nat}

/-- A strip's rows plus the bias row, at (p, q), is the whole matrix plus the spread row at (o + p, q). -/
theorem addRow_strip_apply
    (A : FVec Ideal ⟨2, ![M, b]⟩ .f32) (B : FVec Ideal ⟨2, ![1, b]⟩ .f32)
    (xb : FVec Ideal ⟨2, ![m, b]⟩ .f32) (bb : FVec Ideal ⟨2, ![1, b]⟩ .f32)
    (hc : (⟨2, ![m, b]⟩ : Shape).ShapeCasts ⟨2, ![m, b]⟩) (hc1 : (⟨2, ![1, b]⟩ : Shape).ShapeCasts ⟨2, ![1, b]⟩)
    (hv : (⟨2, ![1, b]⟩ : Shape).Broadcasts ⟨2, ![m, b]⟩)
    (hh : (⟨2, ![1, b]⟩ : Shape).BroadcastsInDim ⟨2, ![M, b]⟩ ![0, 1])
    (o : Nat) (ho : ∀ p : Fin m, o + p.val < M)
    (hx : ∀ (p : Fin m) (q : Fin b), xb (ix2 p q) = A (ix2 ⟨o + p.val, ho p⟩ q))
    (hb : ∀ q : Fin b, bb (ix2 (0 : Fin 1) q) = B (ix2 (0 : Fin 1) q)) (p : Fin m) (q : Fin b) :
    addf (shapeCast ⟨2, ![m, b]⟩ xb hc) (broadcastTo ⟨2, ![m, b]⟩ (shapeCast ⟨2, ![1, b]⟩ bb hc1) hv) (ix2 p q)
      = addf A (broadcastInDim ⟨2, ![M, b]⟩ ![0, 1] hh B) (ix2 ⟨o + p.val, ho p⟩ q) := by
  rw [addf_apply, addf_apply, shapeCast_self, shapeCast_self, RowSpread.rowBcast_apply, RowSpread.rowInDim2_apply,
    hx, hb]

/-- The same sum clamped from below at the scalar with bits z. -/
theorem addRow_max_strip_apply
    (A : FVec Ideal ⟨2, ![M, b]⟩ .f32) (B : FVec Ideal ⟨2, ![1, b]⟩ .f32)
    (xb : FVec Ideal ⟨2, ![m, b]⟩ .f32) (bb : FVec Ideal ⟨2, ![1, b]⟩ .f32)
    (hc : (⟨2, ![m, b]⟩ : Shape).ShapeCasts ⟨2, ![m, b]⟩) (hc1 : (⟨2, ![1, b]⟩ : Shape).ShapeCasts ⟨2, ![1, b]⟩)
    (hv : (⟨2, ![1, b]⟩ : Shape).Broadcasts ⟨2, ![m, b]⟩)
    (hh : (⟨2, ![1, b]⟩ : Shape).BroadcastsInDim ⟨2, ![M, b]⟩ ![0, 1])
    (h0 : (⟨0, ![]⟩ : Shape).BroadcastsInDim ⟨2, ![M, b]⟩ ![]) (z : BitVec 32)
    (o : Nat) (ho : ∀ p : Fin m, o + p.val < M)
    (hx : ∀ (p : Fin m) (q : Fin b), xb (ix2 p q) = A (ix2 ⟨o + p.val, ho p⟩ q))
    (hb : ∀ q : Fin b, bb (ix2 (0 : Fin 1) q) = B (ix2 (0 : Fin 1) q)) (p : Fin m) (q : Fin b) :
    maximumf (addf (shapeCast ⟨2, ![m, b]⟩ xb hc) (broadcastTo ⟨2, ![m, b]⟩ (shapeCast ⟨2, ![1, b]⟩ bb hc1) hv))
        (broadcast ⟨2, ![m, b]⟩ (Scalar.ofBits (F := Ideal) .f32 z)) (ix2 p q)
      = maximumf (addf A (broadcastInDim ⟨2, ![M, b]⟩ ![0, 1] hh B))
          (broadcastInDim ⟨2, ![M, b]⟩ ![] h0 (constant (F := Ideal) ⟨0, ![]⟩ .f32 z)) (ix2 ⟨o + p.val, ho p⟩ q) := by
  rw [maximumf_apply, maximumf_apply, addRow_strip_apply A B xb bb hc hc1 hv hh o ho hx hb p q, broadcast_apply,
    RowSpread.scalarInDim_apply, constant_apply]
  rfl

end Idealize.ShloMosaic.BiasStrip

end
-- ==== Proof.StripLayers.lean ====
/-
  The dense layers on the whole batch, and a strip of rows of each as the kernels compute it.

  On the whole batch of 100000 rows the host computes x · w for the first layer and max (a + b, 0) · w for the
  others (b a bias row spread over the rows). Each kernel is handed a strip of 10000 consecutive rows of x
  (respectively a), all of b and all of w, and computes the same expression on the strip. Row r of a matrix
  product depends only on row r of its left factor, and the bias sum and the clamp are taken entry by entry, so
  entry (p, q) of the strip's result is entry (o + p, q) of the whole batch's, o the strip's first row. The two
  sides are sums of the same terms: nothing about finiteness is used. A change of float format is the identity on
  the extended reals, so the kernels' narrowing of both factors before the product changes nothing.
-/
import proofs.«169848_j86457691668576_1_alg».proof.KernelIdeal
import proofs.«169848_j86457691668576_1_alg».proof.ReferenceIdeal
import proofs.«169848_j86457691668576_1_alg».proof.Proof.Gen.KernelIdeal
import proofs.«169848_j86457691668576_1_alg».proof.Proof.Gen.ReferenceIdeal
import proofs.«169848_j86457691668576_1_alg».proof.Proof.Gen.KernelIdeal.Skeleton
import proofs.«169848_j86457691668576_1_alg».proof.Proof.LibStripDot
import proofs.«169848_j86457691668576_1_alg».proof.Proof.LibBiasStrip

noncomputable section

namespace Cert.KernelIdeal.Layers

open Idealize.ShloMosaic Idealize.ShloMosaic.ValueIdx Cert.KernelIdeal Cert.KernelIdeal.Gen

/-- x · w on the whole batch: 100000 × 128 by 128 × 64. -/
def dense128 (X : FVec Ideal S100000x128 .f32) (W : FVec Ideal S128x64 .f32) : FVec Ideal S100000x64 .f32 :=
  Host.dotGeneral Cert.ReferenceIdeal.dot_S100000x128_S128x64_S100000x64_1_0_0_1_n_n none X W

/-- max (a + b, 0) · w on the whole batch, b a 1 × 64 row spread over the rows: 100000 × 64 by 64 × 64. -/
def reluDense64 (A : FVec Ideal S100000x64 .f32) (B : FVec Ideal S1x64 .f32) (W : FVec Ideal S64x64 .f32) :
    FVec Ideal S100000x64 .f32 :=
  Host.dotGeneral Cert.ReferenceIdeal.dot_S100000x64_S64x64_S100000x64_1_0_0_1_n_n none
    (maximumf (addf A (broadcastInDim S100000x64 ![0, 1] Cert.ReferenceIdeal.Gen.bcast_S1x64_S100000x64_0_1 B))
      (broadcastInDim S100000x64 ![] Cert.ReferenceIdeal.Gen.bcast_S_S100000x64 (constant (F := Ideal) S_ .f32 0x00000000#32))) W

/-- The same with a 64 × 10 weight: the last layer. -/
def reluDense10 (A : FVec Ideal S100000x64 .f32) (B : FVec Ideal S1x64 .f32) (W : FVec Ideal S64x10 .f32) :
    FVec Ideal S100000x10 .f32 :=
  Host.dotGeneral Cert.ReferenceIdeal.dot_S100000x64_S64x10_S100000x10_1_0_0_1_n_n none
    (maximumf (addf A (broadcastInDim S100000x64 ![0, 1] Cert.ReferenceIdeal.Gen.bcast_S1x64_S100000x64_0_1 B))
      (broadcastInDim S100000x64 ![] Cert.ReferenceIdeal.Gen.bcast_S_S100000x64 (constant (F := Ideal) S_ .f32 0x00000000#32))) W

/-- The first kernel's product on a strip of rows of x is that strip of x · w. -/
theorem dense128_strip (X : FVec Ideal S100000x128 .f32) (W : FVec Ideal S128x64 .f32)
    (x0 : Vec Ideal S10000x128 .f32) (x1 : Vec Ideal S128x64 .f32) (o : Nat) (ho : ∀ p : Fin 10000, o + p.val < 100000)
    (hx : ∀ (p : Fin 10000) (k : Fin 128), x0 (ix2 p k) = X (ix2 ⟨o + p.val, ho p⟩ k))
    (hw : ∀ (k : Fin 128) (q : Fin 64), x1 (ix2 k q) = W (ix2 k q)) (p : Fin 10000) (q : Fin 64) :
    k0_pay1 (F := Ideal) x0 x1 (ix2 p q) = dense128 X W (ix2 ⟨o + p.val, ho p⟩ q) := by
  unfold k0_pay1 dense128
  exact StripDot.matmul_strip_apply (φ₁ := .f32) (φ₂ := .f32) none none .single X W x0 x1 o ho hx hw p q

/-- The clamped, biased strip: entry (p, k) of max (strip + b, 0) is entry (o + p, k) of max (a + b, 0). -/
theorem relu_strip (A : FVec Ideal S100000x64 .f32) (B : FVec Ideal S1x64 .f32)
    (x0 : Vec Ideal S10000x64 .f32) (x1 : Vec Ideal S1x64 .f32) (o : Nat) (ho : ∀ p : Fin 10000, o + p.val < 100000)
    (hx : ∀ (p : Fin 10000) (k : Fin 64), x0 (ix2 p k) = A (ix2 ⟨o + p.val, ho p⟩ k))
    (hb : ∀ k : Fin 64, x1 (ix2 (0 : Fin 1) k) = B (ix2 (0 : Fin 1) k)) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
    = maximumf (addf A (broadcastInDim S100000x64 ![0, 1] Cert.ReferenceIdeal.Gen.bcast_S1x64_S100000x64_0_1 B))
        (broadcastInDim S100000x64 ![] Cert.ReferenceIdeal.Gen.bcast_S_S100000x64 (constant (F := Ideal) S_ .f32 0x00000000#32))
        (ix2 ⟨o + p.val, ho p⟩ k) :=
  BiasStrip.addRow_max_strip_apply A B x0 x1 shapeCasts_S10000x64_S10000x64 shapeCasts_S1x64_S1x64
    broadcasts_S1x64_S10000x64 Cert.ReferenceIdeal.Gen.bcast_S1x64_S100000x64_0_1 Cert.ReferenceIdeal.Gen.bcast_S_S100000x64
    0x00000000#32 o ho hx hb p k

/-- A fused kernel's result on a strip of rows of a is that strip of max (a + b, 0) · w (64 × 64 weight). -/
theorem reluDense64_strip (A : FVec Ideal S100000x64 .f32) (B : FVec Ideal S1x64 .f32) (W : FVec Ideal S64x64 .f32)
    (x0 : Vec Ideal S10000x64 .f32) (x1 : Vec Ideal S1x64 .f32) (x2 : Vec Ideal S64x64 .f32)
    (o : Nat) (ho : ∀ p : Fin 10000, o + p.val < 100000)
    (hx : ∀ (p : Fin 10000) (k : Fin 64), x0 (ix2 p k) = A (ix2 ⟨o + p.val, ho p⟩ k))
    (hb : ∀ k : Fin 64, x1 (ix2 (0 : Fin 1) k) = B (ix2 (0 : Fin 1) k))
    (hw : ∀ (k : Fin 64) (q : Fin 64), x2 (ix2 k q) = W (ix2 k q)) (p : Fin 10000) (q : Fin 64) :
    k1_pay1 (F := Ideal) x0 x1 x2 (ix2 p q) = reluDense64 A B W (ix2 ⟨o + p.val, ho p⟩ q) := by
  unfold k1_pay1 reluDense64
  exact StripDot.matmul_strip_apply (φ₁ := .f32) (φ₂ := .f32) none none .single _ W _ x2 o ho
    (fun p k => relu_strip A B x0 x1 o ho hx hb p k) hw p q

/-- The third kernel is the second one again. -/
theorem reluDense64_strip' (A : FVec Ideal S100000x64 .f32) (B : FVec Ideal S1x64 .f32) (W : FVec Ideal S64x64 .f32)
    (x0 : Vec Ideal S10000x64 .f32) (x1 : Vec Ideal S1x64 .f32) (x2 : Vec Ideal S64x64 .f32)
    (o : Nat) (ho : ∀ p : Fin 10000, o + p.val < 100000)
    (hx : ∀ (p : Fin 10000) (k : Fin 64), x0 (ix2 p k) = A (ix2 ⟨o + p.val, ho p⟩ k))
    (hb : ∀ k : Fin 64, x1 (ix2 (0 : Fin 1) k) = B (ix2 (0 : Fin 1) k))
    (hw : ∀ (k : Fin 64) (q : Fin 64), x2 (ix2 k q) = W (ix2 k q)) (p : Fin 10000) (q : Fin 64) :
    k2_pay1 (F := Ideal) x0 x1 x2 (ix2 p q) = reluDense64 A B W (ix2 ⟨o + p.val, ho p⟩ q) := by
  unfold k2_pay1 reluDense64
  exact StripDot.matmul_strip_apply (φ₁ := .f32) (φ₂ := .f32) none none .single _ W _ x2 o ho
    (fun p k => relu_strip A B x0 x1 o ho hx hb p k) hw p q

/-- The last kernel: the same on a 64 × 10 weight. -/
theorem reluDense10_strip (A : FVec Ideal S100000x64 .f32) (B : FVec Ideal S1x64 .f32) (W : FVec Ideal S64x10 .f32)
    (x0 : Vec Ideal S10000x64 .f32) (x1 : Vec Ideal S1x64 .f32) (x2 : Vec Ideal S64x10 .f32)
    (o : Nat) (ho : ∀ p : Fin 10000, o + p.val < 100000)
    (hx : ∀ (p : Fin 10000) (k : Fin 64), x0 (ix2 p k) = A (ix2 ⟨o + p.val, ho p⟩ k))
    (hb : ∀ k : Fin 64, x1 (ix2 (0 : Fin 1) k) = B (ix2 (0 : Fin 1) k))
    (hw : ∀ (k : Fin 64) (q : Fin 10), x2 (ix2 k q) = W (ix2 k q)) (p : Fin 10000) (q : Fin 10) :
    k3_pay1 (F := Ideal) x0 x1 x2 (ix2 p q) = reluDense10 A B W (ix2 ⟨o + p.val, ho p⟩ q) := by
  unfold k3_pay1 reluDense10
  exact StripDot.matmul_strip_apply (φ₁ := .f32) (φ₂ := .f32) none none .single _ W _ x2 o ho
    (fun p k => relu_strip A B x0 x1 o ho hx hb p k) hw p q

end Cert.KernelIdeal.Layers

end
-- ==== Proof.Region0.lean ====
/-
  The first launch: after it the result array holds x · w.

  The grid has ten points. Point t is handed rows 10000 t … 10000 t + 9999 of x and all of w, and writes the product
  of its strip with w back as rows 10000 t … 10000 t + 9999 of the result array; these are the same rows of x · w.
  Every row of the array lies in exactly one point's block (row r in point r / 10000), so after the launch the whole
  array is x · w, whatever it held before.
-/
import proofs.«169848_j86457691668576_1_alg».proof.Proof.Gen.KernelIdeal.Frame
import proofs.«169848_j86457691668576_1_alg».proof.Proof.StripLayers
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: x's and the result's blocks move down the rows with the point, w's stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) (p : Fin 10000) : t.val * 10000 + p.val < 100000 := by
  have hN : cfg0.N = 10 := N_0
  have ht := t.isLt
  have hp := p.isLt
  omega

/-- Entry (p, k) of x's block at point t is entry (10000 t + p, k) of x. -/
theorem x_block0 (c : Dev nD) (t : Fin cfg0.N) (p : Fin 10000) (k : Fin 128) :
    (iblk0 V c 0 t : Vec Ideal S10000x128 .f32) (ix2 p k)
      = (V c main_arg0 : S100000x128.Idx → Elt Ideal .f32) (ix2 ⟨t.val * 10000 + p.val, lt0 t p⟩ k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- w's block at every point is w. -/
theorem w_block0 (c : Dev nD) (t : Fin cfg0.N) (k : Fin 128) (q : Fin 64) :
    (iblk0 V c 1 t : Vec Ideal S128x64 .f32) (ix2 k q) = (V c main_arg3 : S128x64.Idx → Elt Ideal .f32) (ix2 k q) := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- What point t writes back is block t of x · w. -/
theorem flushed0 (c : Dev nD) (t : Fin cfg0.N) :
    (dat0 V c).flushed 2 t
      = ((cfg0.win 2).blk t).view.read (Elt Ideal) (Layers.dense128 (V c main_arg0) (V c main_arg3)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x64) zero2]
  obtain ⟨-, -, -, -, e4, e5⟩ := idx0 t
  funext j
  obtain ⟨p, q, rfl⟩ : ∃ (p : Fin 10000) (q : Fin 64), j = ix2 p q := ⟨j 0, j 1, eq_ix2 j⟩
  rw [View.read_apply]
  have hemb : ((cfg0.win 2).blk t).view.emb (ix2 p q) = ix2 ⟨t.val * 10000 + p.val, lt0 t p⟩ q := by
    funext a
    apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (Layers.dense128_strip (V c main_arg0) (V c main_arg3) (iblk0 V c 0 t) (iblk0 V c 1 t) (t.val * 10000)
    (lt0 t) (x_block0 V c t) (w_block0 V c t) p q).trans ?_
  exact congrArg (Layers.dense128 (V c main_arg0) (V c main_arg3)) hemb.symm

/-- An index of the result array is in point t's block iff its row is one of the block's. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- After the launch the result array is x · w of the arrays the launch found. -/
theorem final0 (c : Dev nD) :
    (dat0 V c).arrAt 2 cfg0.N = Layers.dense128 (V c main_arg0) (V c main_arg3) :=
  (dat0 V c).arrAt_eq_of_cover 2 _ (fun t _ => flushed0 V c t) fun i => by
    have hi0 : (i 0).val < 100000 := (i 0).isLt
    have hi1 : (i 1).val < 64 := (i 1).isLt
    have hN : cfg0.N = 10 := N_0
    refine ⟨⟨(i 0).val / 10000, by rw [hN]; omega⟩, flush0_2 _, ?_⟩
    rw [mem_blk0]
    obtain ⟨-, -, -, -, e4, e5⟩ := idx0 ⟨(i 0).val / 10000, by rw [hN]; omega⟩
    intro a
    match a with
    | ⟨0, _⟩ =>
      show win0_2.index _ (0 : Fin 2) * 10000 ≤ (i 0).val ∧ (i 0).val < win0_2.index _ (0 : Fin 2) * 10000 + 10000
      rw [e4]; show (i 0).val / 10000 * 10000 ≤ (i 0).val ∧ (i 0).val < (i 0).val / 10000 * 10000 + 10000; omega
    | ⟨1, _⟩ =>
      show win0_2.index _ (1 : Fin 2) * 64 ≤ (i 1).val ∧ (i 1).val < win0_2.index _ (1 : Fin 2) * 64 + 64
      rw [e5]; omega

end Cert.KernelIdeal.Regions

end
-- ==== Proof.Region1.lean ====
/-
  The second launch: after it the result array holds max (a + b, 0) · w, a the first layer's aggregate.

  The grid has ten points. Point t is handed rows 10000 t … 10000 t + 9999 of a, all of the bias row b and all of w,
  and writes max (strip + b, 0) · w back as rows 10000 t … 10000 t + 9999 of the result array; these are the same rows
  of max (a + b, 0) · w. Every row of the array lies in exactly one point's block (row r in point r / 10000), so
  after the launch the whole array is max (a + b, 0) · w, whatever it held before.
-/
import proofs.«169848_j86457691668576_1_alg».proof.Proof.Gen.KernelIdeal.Frame
import proofs.«169848_j86457691668576_1_alg».proof.Proof.StripLayers
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_1 : (![0, 0] : Fin 2 → Nat) = fun _ => 0 := funext fun a => by fin_cases a <;> rfl

/-- The index maps over the grid: a's and the result's blocks move down the rows with the point, b's and w's stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) (p : Fin 10000) : t.val * 10000 + p.val < 100000 := by
  have hN : cfg1.N = 10 := N_1
  have ht := t.isLt
  have hp := p.isLt
  omega

/-- Entry (p, k) of a's block at point t is entry (10000 t + p, k) of a. -/
theorem a_block1 (c : Dev nD) (t : Fin cfg1.N) (p : Fin 10000) (k : Fin 64) :
    (iblk1 V c 0 t : Vec Ideal S10000x64 .f32) (ix2 p k)
      = (V c main_v43 : S100000x64.Idx → Elt Ideal .f32) (ix2 ⟨t.val * 10000 + p.val, lt1 t p⟩ k) := by
  obtain ⟨e0, e1, -⟩ := idx1 t
  unfold iblk1
  rw [View.read_apply]
  show V c main_v43 _ = V c main_v43 _
  congr 1
  funext a
  apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- The bias row's block at every point is the bias row. -/
theorem b_block1 (c : Dev nD) (t : Fin cfg1.N) (k : Fin 64) :
    (iblk1 V c 1 t : Vec Ideal S1x64 .f32) (ix2 (0 : Fin 1) k) = (V c main_v44 : S1x64.Idx → Elt Ideal .f32) (ix2 (0 : Fin 1) k) := by
  obtain ⟨-, -, e2, e3, -⟩ := idx1 t
  unfold iblk1
  rw [View.read_apply]
  show V c main_v44 _ = V c main_v44 _
  congr 1
  funext a
  apply Fin.ext
  match a with
  | ⟨0, _⟩ => show win1_1.index t (0 : Fin 2) * 1 + 1 * 0 = 0; omega
  | ⟨1, _⟩ => show win1_1.index t (1 : Fin 2) * 64 + 1 * k.val = k.val; omega

/-- w's block at every point is w. -/
theorem w_block1 (c : Dev nD) (t : Fin cfg1.N) (k : Fin 64) (q : Fin 64) :
    (iblk1 V c 2 t : Vec Ideal S64x64 .f32) (ix2 k q) = (V c main_arg5 : S64x64.Idx → Elt Ideal .f32) (ix2 k q) := by
  obtain ⟨-, -, -, -, e4, e5, -⟩ := idx1 t
  unfold iblk1
  rw [View.read_apply]
  show V c main_arg5 _ = V c main_arg5 _
  congr 1
  funext a
  apply Fin.ext
  match a with
  | ⟨0, _⟩ => show win1_2.index t (0 : Fin 2) * 64 + 1 * k.val = k.val; omega
  | ⟨1, _⟩ => show win1_2.index t (1 : Fin 2) * 64 + 1 * q.val = q.val; omega

/-- What point t writes back is block t of max (a + b, 0) · w. -/
theorem flushed1 (c : Dev nD) (t : Fin cfg1.N) :
    (dat1 V c).flushed 3 t
      = ((cfg1.win 3).blk t).view.read (Elt Ideal) (Layers.reluDense64 (V c main_v43) (V c main_v44) (V c main_arg5)) := by
  show (cfg1.win 3).cut (grid1.coords t) ((dat1 V c).after 3 t) = _
  rw [after1_3]
  unfold out1_3
  rw [View.canon_unit_zero zero2_1]
  simp only [View.ld_unit_zero (S := S10000x64) zero2_1, View.ld_unit_zero (S := S1x64) zero2_1, View.ld_unit_zero (S := S64x64) zero2_1]
  obtain ⟨-, -, -, -, -, -, e6, e7⟩ := idx1 t
  funext j
  obtain ⟨p, q, rfl⟩ : ∃ (p : Fin 10000) (q : Fin 64), j = ix2 p q := ⟨j 0, j 1, eq_ix2 j⟩
  rw [View.read_apply]
  have hemb : ((cfg1.win 3).blk t).view.emb (ix2 p q) = ix2 ⟨t.val * 10000 + p.val, lt1 t p⟩ q := by
    funext a
    apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  refine (Layers.reluDense64_strip (V c main_v43) (V c main_v44) (V c main_arg5) (iblk1 V c 0 t) (iblk1 V c 1 t) (iblk1 V c 2 t)
    (t.val * 10000) (lt1 t) (a_block1 V c t) (b_block1 V c t) (w_block1 V c t) p q).trans ?_
  exact congrArg (Layers.reluDense64 (V c main_v43) (V c main_v44) (V c main_arg5)) hemb.symm

/-- An index of the result array is in point t's block iff its row is one of the block's. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- After the launch the result array is max (a + b, 0) · w of the arrays the launch found. -/
theorem final1 (c : Dev nD) :
    (dat1 V c).arrAt 3 cfg1.N = Layers.reluDense64 (V c main_v43) (V c main_v44) (V c main_arg5) :=
  (dat1 V c).arrAt_eq_of_cover 3 _ (fun t _ => flushed1 V c t) fun i => by
    have hi0 : (i 0).val < 100000 := (i 0).isLt
    have hi1 : (i 1).val < 64 := (i 1).isLt
    have hN : cfg1.N = 10 := N_1
    refine ⟨⟨(i 0).val / 10000, by rw [hN]; omega⟩, flush1_3 _, ?_⟩
    rw [mem_blk1]
    obtain ⟨-, -, -, -, -, -, e6, e7⟩ := idx1 ⟨(i 0).val / 10000, by rw [hN]; omega⟩
    intro a
    match a with
    | ⟨0, _⟩ =>
      show win1_3.index _ (0 : Fin 2) * 10000 ≤ (i 0).val ∧ (i 0).val < win1_3.index _ (0 : Fin 2) * 10000 + 10000
      rw [e6]; show (i 0).val / 10000 * 10000 ≤ (i 0).val ∧ (i 0).val < (i 0).val / 10000 * 10000 + 10000; omega
    | ⟨1, _⟩ =>
      show win1_3.index _ (1 : Fin 2) * 64 ≤ (i 1).val ∧ (i 1).val < win1_3.index _ (1 : Fin 2) * 64 + 64
      rw [e7]; omega

end Cert.KernelIdeal.Regions

end
-- ==== Proof.Region2.lean ====
/-
  The third launch: after it the result array holds max (a + b, 0) · w, a the second layer's aggregate.

  The grid has ten points. Point t is handed rows 10000 t … 10000 t + 9999 of a, all of the bias row b and all of w,
  and writes max (strip + b, 0) · w back as rows 10000 t … 10000 t + 9999 of the result array; these are the same rows
  of max (a + b, 0) · w. Every row of the array lies in exactly one point's block (row r in point r / 10000), so
  after the launch the whole array is max (a + b, 0) · w, whatever it held before.
-/
import proofs.«169848_j86457691668576_1_alg».proof.Proof.Gen.KernelIdeal.Frame
import proofs.«169848_j86457691668576_1_alg».proof.Proof.StripLayers
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_2 : (![0, 0] : Fin 2 → Nat) = fun _ => 0 := funext fun a => by fin_cases a <;> rfl

/-- The index maps over the grid: a's and the result's blocks move down the rows with the point, b's and w's stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) (p : Fin 10000) : t.val * 10000 + p.val < 100000 := by
  have hN : cfg2.N = 10 := N_2
  have ht := t.isLt
  have hp := p.isLt
  omega

/-- Entry (p, k) of a's block at point t is entry (10000 t + p, k) of a. -/
theorem a_block2 (c : Dev nD) (t : Fin cfg2.N) (p : Fin 10000) (k : Fin 64) :
    (iblk2 V c 0 t : Vec Ideal S10000x64 .f32) (ix2 p k)
      = (V c main_v57 : S100000x64.Idx → Elt Ideal .f32) (ix2 ⟨t.val * 10000 + p.val, lt2 t p⟩ k) := by
  obtain ⟨e0, e1, -⟩ := idx2 t
  unfold iblk2
  rw [View.read_apply]
  show V c main_v57 _ = V c main_v57 _
  congr 1
  funext a
  apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The bias row's block at every point is the bias row. -/
theorem b_block2 (c : Dev nD) (t : Fin cfg2.N) (k : Fin 64) :
    (iblk2 V c 1 t : Vec Ideal S1x64 .f32) (ix2 (0 : Fin 1) k) = (V c main_v58 : S1x64.Idx → Elt Ideal .f32) (ix2 (0 : Fin 1) k) := by
  obtain ⟨-, -, e2, e3, -⟩ := idx2 t
  unfold iblk2
  rw [View.read_apply]
  show V c main_v58 _ = V c main_v58 _
  congr 1
  funext a
  apply Fin.ext
  match a with
  | ⟨0, _⟩ => show win2_1.index t (0 : Fin 2) * 1 + 1 * 0 = 0; omega
  | ⟨1, _⟩ => show win2_1.index t (1 : Fin 2) * 64 + 1 * k.val = k.val; omega

/-- w's block at every point is w. -/
theorem w_block2 (c : Dev nD) (t : Fin cfg2.N) (k : Fin 64) (q : Fin 64) :
    (iblk2 V c 2 t : Vec Ideal S64x64 .f32) (ix2 k q) = (V c main_arg7 : S64x64.Idx → Elt Ideal .f32) (ix2 k q) := by
  obtain ⟨-, -, -, -, e4, e5, -⟩ := idx2 t
  unfold iblk2
  rw [View.read_apply]
  show V c main_arg7 _ = V c main_arg7 _
  congr 1
  funext a
  apply Fin.ext
  match a with
  | ⟨0, _⟩ => show win2_2.index t (0 : Fin 2) * 64 + 1 * k.val = k.val; omega
  | ⟨1, _⟩ => show win2_2.index t (1 : Fin 2) * 64 + 1 * q.val = q.val; omega

/-- What point t writes back is block t of max (a + b, 0) · w. -/
theorem flushed2 (c : Dev nD) (t : Fin cfg2.N) :
    (dat2 V c).flushed 3 t
      = ((cfg2.win 3).blk t).view.read (Elt Ideal) (Layers.reluDense64 (V c main_v57) (V c main_v58) (V c main_arg7)) := by
  show (cfg2.win 3).cut (grid2.coords t) ((dat2 V c).after 3 t) = _
  rw [after2_3]
  unfold out2_3
  rw [View.canon_unit_zero zero2_2]
  simp only [View.ld_unit_zero (S := S10000x64) zero2_2, View.ld_unit_zero (S := S1x64) zero2_2, View.ld_unit_zero (S := S64x64) zero2_2]
  obtain ⟨-, -, -, -, -, -, e6, e7⟩ := idx2 t
  funext j
  obtain ⟨p, q, rfl⟩ : ∃ (p : Fin 10000) (q : Fin 64), j = ix2 p q := ⟨j 0, j 1, eq_ix2 j⟩
  rw [View.read_apply]
  have hemb : ((cfg2.win 3).blk t).view.emb (ix2 p q) = ix2 ⟨t.val * 10000 + p.val, lt2 t p⟩ q := by
    funext a
    apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  refine (Layers.reluDense64_strip' (V c main_v57) (V c main_v58) (V c main_arg7) (iblk2 V c 0 t) (iblk2 V c 1 t) (iblk2 V c 2 t)
    (t.val * 10000) (lt2 t) (a_block2 V c t) (b_block2 V c t) (w_block2 V c t) p q).trans ?_
  exact congrArg (Layers.reluDense64 (V c main_v57) (V c main_v58) (V c main_arg7)) hemb.symm

/-- An index of the result array is in point t's block iff its row is one of the block's. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v59).slice (win2_3.rect t)).set ↔ _
  rw [View.set_slice_whole, Rect.mem_set_unit]
  exact Iff.rfl

/-- After the launch the result array is max (a + b, 0) · w of the arrays the launch found. -/
theorem final2 (c : Dev nD) :
    (dat2 V c).arrAt 3 cfg2.N = Layers.reluDense64 (V c main_v57) (V c main_v58) (V c main_arg7) :=
  (dat2 V c).arrAt_eq_of_cover 3 _ (fun t _ => flushed2 V c t) fun i => by
    have hi0 : (i 0).val < 100000 := (i 0).isLt
    have hi1 : (i 1).val < 64 := (i 1).isLt
    have hN : cfg2.N = 10 := N_2
    refine ⟨⟨(i 0).val / 10000, by rw [hN]; omega⟩, flush2_3 _, ?_⟩
    rw [mem_blk2]
    obtain ⟨-, -, -, -, -, -, e6, e7⟩ := idx2 ⟨(i 0).val / 10000, by rw [hN]; omega⟩
    intro a
    match a with
    | ⟨0, _⟩ =>
      show win2_3.index _ (0 : Fin 2) * 10000 ≤ (i 0).val ∧ (i 0).val < win2_3.index _ (0 : Fin 2) * 10000 + 10000
      rw [e6]; show (i 0).val / 10000 * 10000 ≤ (i 0).val ∧ (i 0).val < (i 0).val / 10000 * 10000 + 10000; omega
    | ⟨1, _⟩ =>
      show win2_3.index _ (1 : Fin 2) * 64 ≤ (i 1).val ∧ (i 1).val < win2_3.index _ (1 : Fin 2) * 64 + 64
      rw [e7]; omega

end Cert.KernelIdeal.Regions

end
-- ==== Proof.Region3.lean ====
/-
  The fourth launch: after it the result array holds max (a + b, 0) · w, a the third layer's aggregate and w of ten columns.

  The grid has ten points. Point t is handed rows 10000 t … 10000 t + 9999 of a, all of the bias row b and all of w,
  and writes max (strip + b, 0) · w back as rows 10000 t … 10000 t + 9999 of the result array; these are the same rows
  of max (a + b, 0) · w. Every row of the array lies in exactly one point's block (row r in point r / 10000), so
  after the launch the whole array is max (a + b, 0) · w, whatever it held before.
-/
import proofs.«169848_j86457691668576_1_alg».proof.Proof.Gen.KernelIdeal.Frame
import proofs.«169848_j86457691668576_1_alg».proof.Proof.StripLayers
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2_3 : (![0, 0] : Fin 2 → Nat) = fun _ => 0 := funext fun a => by fin_cases a <;> rfl

/-- The index maps over the grid: a's and the result's blocks move down the rows with the point, b's and w's stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt3 (t : Fin cfg3.N) (p : Fin 10000) : t.val * 10000 + p.val < 100000 := by
  have hN : cfg3.N = 10 := N_3
  have ht := t.isLt
  have hp := p.isLt
  omega

/-- Entry (p, k) of a's block at point t is entry (10000 t + p, k) of a. -/
theorem a_block3 (c : Dev nD) (t : Fin cfg3.N) (p : Fin 10000) (k : Fin 64) :
    (iblk3 V c 0 t : Vec Ideal S10000x64 .f32) (ix2 p k)
      = (V c main_v71 : S100000x64.Idx → Elt Ideal .f32) (ix2 ⟨t.val * 10000 + p.val, lt3 t p⟩ k) := by
  obtain ⟨e0, e1, -⟩ := idx3 t
  unfold iblk3
  rw [View.read_apply]
  show V c main_v71 _ = V c main_v71 _
  congr 1
  funext a
  apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

/-- The bias row's block at every point is the bias row. -/
theorem b_block3 (c : Dev nD) (t : Fin cfg3.N) (k : Fin 64) :
    (iblk3 V c 1 t : Vec Ideal S1x64 .f32) (ix2 (0 : Fin 1) k) = (V c main_v72 : S1x64.Idx → Elt Ideal .f32) (ix2 (0 : Fin 1) k) := by
  obtain ⟨-, -, e2, e3, -⟩ := idx3 t
  unfold iblk3
  rw [View.read_apply]
  show V c main_v72 _ = V c main_v72 _
  congr 1
  funext a
  apply Fin.ext
  match a with
  | ⟨0, _⟩ => show win3_1.index t (0 : Fin 2) * 1 + 1 * 0 = 0; omega
  | ⟨1, _⟩ => show win3_1.index t (1 : Fin 2) * 64 + 1 * k.val = k.val; omega

/-- w's block at every point is w. -/
theorem w_block3 (c : Dev nD) (t : Fin cfg3.N) (k : Fin 64) (q : Fin 10) :
    (iblk3 V c 2 t : Vec Ideal S64x10 .f32) (ix2 k q) = (V c main_arg9 : S64x10.Idx → Elt Ideal .f32) (ix2 k q) := by
  obtain ⟨-, -, -, -, e4, e5, -⟩ := idx3 t
  unfold iblk3
  rw [View.read_apply]
  show V c main_arg9 _ = V c main_arg9 _
  congr 1
  funext a
  apply Fin.ext
  match a with
  | ⟨0, _⟩ => show win3_2.index t (0 : Fin 2) * 64 + 1 * k.val = k.val; omega
  | ⟨1, _⟩ => show win3_2.index t (1 : Fin 2) * 10 + 1 * q.val = q.val; omega

/-- What point t writes back is block t of max (a + b, 0) · w. -/
theorem flushed3 (c : Dev nD) (t : Fin cfg3.N) :
    (dat3 V c).flushed 3 t
      = ((cfg3.win 3).blk t).view.read (Elt Ideal) (Layers.reluDense10 (V c main_v71) (V c main_v72) (V c main_arg9)) := by
  show (cfg3.win 3).cut (grid3.coords t) ((dat3 V c).after 3 t) = _
  rw [after3_3]
  unfold out3_3
  rw [View.canon_unit_zero zero2_3]
  simp only [View.ld_unit_zero (S := S10000x64) zero2_3, View.ld_unit_zero (S := S1x64) zero2_3, View.ld_unit_zero (S := S64x10) zero2_3]
  obtain ⟨-, -, -, -, -, -, e6, e7⟩ := idx3 t
  funext j
  obtain ⟨p, q, rfl⟩ : ∃ (p : Fin 10000) (q : Fin 10), j = ix2 p q := ⟨j 0, j 1, eq_ix2 j⟩
  rw [View.read_apply]
  have hemb : ((cfg3.win 3).blk t).view.emb (ix2 p q) = ix2 ⟨t.val * 10000 + p.val, lt3 t p⟩ q := by
    funext a
    apply Fin.ext
    match a with
    | ⟨0, _⟩ => show win3_3.index t (0 : Fin 2) * 10000 + 1 * p.val = t.val * 10000 + p.val; omega
    | ⟨1, _⟩ => show win3_3.index t (1 : Fin 2) * 10 + 1 * q.val = q.val; omega
  refine (Layers.reluDense10_strip (V c main_v71) (V c main_v72) (V c main_arg9) (iblk3 V c 0 t) (iblk3 V c 1 t) (iblk3 V c 2 t)
    (t.val * 10000) (lt3 t) (a_block3 V c t) (b_block3 V c t) (w_block3 V c t) p q).trans ?_
  exact congrArg (Layers.reluDense10 (V c main_v71) (V c main_v72) (V c main_arg9)) hemb.symm

/-- An index of the result array is in point t's block iff its row is one of the block's. -/
theorem mem_blk3 (t : Fin cfg3.N) (i : S100000x10.Idx) :
    i ∈ ((cfg3.win 3).blk t).view.set ↔ ∀ a : Fin 2, win3_3.index t a * S10000x10.size a ≤ (i a).val
      ∧ (i a).val < win3_3.index t a * S10000x10.size a + S10000x10.size a := by
  show i ∈ ((View.whole main_v73).slice (win3_3.rect t)).set ↔ _
  rw [View.set_slice_whole, Rect.mem_set_unit]
  exact Iff.rfl

/-- After the launch the result array is max (a + b, 0) · w of the arrays the launch found. -/
theorem final3 (c : Dev nD) :
    (dat3 V c).arrAt 3 cfg3.N = Layers.reluDense10 (V c main_v71) (V c main_v72) (V c main_arg9) :=
  (dat3 V c).arrAt_eq_of_cover 3 _ (fun t _ => flushed3 V c t) fun i => by
    have hi0 : (i 0).val < 100000 := (i 0).isLt
    have hi1 : (i 1).val < 10 := (i 1).isLt
    have hN : cfg3.N = 10 := N_3
    refine ⟨⟨(i 0).val / 10000, by rw [hN]; omega⟩, flush3_3 _, ?_⟩
    rw [mem_blk3]
    obtain ⟨-, -, -, -, -, -, e6, e7⟩ := idx3 ⟨(i 0).val / 10000, by rw [hN]; omega⟩
    intro a
    match a with
    | ⟨0, _⟩ =>
      show win3_3.index _ (0 : Fin 2) * 10000 ≤ (i 0).val ∧ (i 0).val < win3_3.index _ (0 : Fin 2) * 10000 + 10000
      rw [e6]; show (i 0).val / 10000 * 10000 ≤ (i 0).val ∧ (i 0).val < (i 0).val / 10000 * 10000 + 10000; omega
    | ⟨1, _⟩ =>
      show win3_3.index _ (1 : Fin 2) * 10 ≤ (i 1).val ∧ (i 1).val < win3_3.index _ (1 : Fin 2) * 10 + 10
      rw [e7]; omega

end Cert.KernelIdeal.Regions

end
-- ==== Proof.KernelFold.lean ====
/-
  @main's launches as operations on the buffer contents, and the contents after @main as one fold.

  Each launch leaves every buffer as it found it except its result array, which ends at the layer's function of the
  arrays the launch read (x · w, respectively max (a + b, 0) · w, on the whole batch): its input arrays are only read,
  and every other buffer is none of its arrays. So a launch acts on the buffer contents exactly as one more host
  operation writing one buffer from two or three others, and the contents after @main are the fold of @main's
  stretches of host operations and of these four operations, in order, from the launch memory.
-/
import proofs.«169848_j86457691668576_1_alg».proof.Proof.Gen.KernelIdeal.Frame
import proofs.«169848_j86457691668576_1_alg».proof.Proof.Region0
import proofs.«169848_j86457691668576_1_alg».proof.Proof.Region1
import proofs.«169848_j86457691668576_1_alg».proof.Proof.Region2
import proofs.«169848_j86457691668576_1_alg».proof.Proof.Region3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The launches as operations on the buffer contents: each writes its result array from the arrays it reads. -/
abbrev layer0 : HloOp τ sig (Elt Ideal) := StableHlo.binary main_arg0 main_arg3 main_v31 Layers.dense128
abbrev layer1 : HloOp τ sig (Elt Ideal) := StableHlo.ternary main_v43 main_v44 main_arg5 main_v45 Layers.reluDense64
abbrev layer2 : HloOp τ sig (Elt Ideal) := StableHlo.ternary main_v57 main_v58 main_arg7 main_v59 Layers.reluDense64
abbrev layer3 : HloOp τ sig (Elt Ideal) := StableHlo.ternary main_v71 main_v72 main_arg9 main_v73 Layers.reluDense10

/-- The first launch's exit contents are its entry contents with x · w written to the result array. -/
theorem exit0 (c : Dev nD) : W4 m ρ c = layer0.result (W3 m ρ c) := by
  funext b
  by_cases hex : ∃ w, Proc.devRef .tc (Pipeline.arrRef spec0 w) = b
  · obtain ⟨w, rfl⟩ := hex
    rw [W4_arr]
    have h3 : ∀ w : Fin 3, (dat0 (V3 m ρ) c).arrAt w cfg0.N
        = layer0.result (W3 m ρ c) (Proc.devRef .tc (Pipeline.arrRef spec0 w)) := fun
      | 0 => (((dat0 (V3 m ρ) c).arrAt_in 0 rfl _).trans (A_eq0 (V3 m ρ) c 0)).trans
          (StableHlo.binary_result_ne _ _ _ _ _ _ _ (W3 m ρ c) (by decide : main_arg0 ≠ main_v31)).symm
      | 1 => (((dat0 (V3 m ρ) c).arrAt_in 1 rfl _).trans (A_eq0 (V3 m ρ) c 1)).trans
          (StableHlo.binary_result_ne _ _ _ _ _ _ _ (W3 m ρ c) (by decide : main_arg3 ≠ main_v31)).symm
      | 2 => (Regions.final0 (V3 m ρ) c).trans (StableHlo.binary_result main_arg0 main_arg3 main_v31 Layers.dense128 _ _ _ (W3 m ρ c)).symm
      | ⟨_ + 3, h⟩ => absurd h (Nat.not_lt.2 (Nat.le_add_left _ _))
    exact h3 w
  · have h1 : W4 m ρ c b = W3 m ρ c b := by unfold W4 Pipeline.withArrays; exact dif_neg hex
    rw [h1]
    exact (HloOp.result_of_not_mem _ _ (by
      rw [StableHlo.binary_writes, Finset.mem_singleton]; exact fun e => hex ⟨2, e.symm⟩)).symm

/-- Launch 2's exit contents are its entry contents with max (a + b, 0) · w written to the result array. -/
theorem exit1 (c : Dev nD) : W6 m ρ c = layer1.result (W5 m ρ c) := by
  funext b
  by_cases hex : ∃ w, Proc.devRef .tc (Pipeline.arrRef spec1 w) = b
  · obtain ⟨w, rfl⟩ := hex
    rw [W6_arr]
    have h4 : ∀ w : Fin 4, (dat1 (V5 m ρ) c).arrAt w cfg1.N
        = layer1.result (W5 m ρ c) (Proc.devRef .tc (Pipeline.arrRef spec1 w)) := fun
      | 0 => (((dat1 (V5 m ρ) c).arrAt_in 0 rfl _).trans (A_eq1 (V5 m ρ) c 0)).trans
          (StableHlo.ternary_result_ne _ _ _ _ _ _ _ _ _ (W5 m ρ c) (by decide : main_v43 ≠ main_v45)).symm
      | 1 => (((dat1 (V5 m ρ) c).arrAt_in 1 rfl _).trans (A_eq1 (V5 m ρ) c 1)).trans
          (StableHlo.ternary_result_ne _ _ _ _ _ _ _ _ _ (W5 m ρ c) (by decide : main_v44 ≠ main_v45)).symm
      | 2 => (((dat1 (V5 m ρ) c).arrAt_in 2 rfl _).trans (A_eq1 (V5 m ρ) c 2)).trans
          (StableHlo.ternary_result_ne _ _ _ _ _ _ _ _ _ (W5 m ρ c) (by decide : main_arg5 ≠ main_v45)).symm
      | 3 => (Regions.final1 (V5 m ρ) c).trans (StableHlo.ternary_result main_v43 main_v44 main_arg5 main_v45 Layers.reluDense64 _ _ _ _ (W5 m ρ c)).symm
      | ⟨_ + 4, h⟩ => absurd h (Nat.not_lt.2 (Nat.le_add_left _ _))
    exact h4 w
  · have h1 : W6 m ρ c b = W5 m ρ c b := by unfold W6 Pipeline.withArrays; exact dif_neg hex
    rw [h1]
    exact (HloOp.result_of_not_mem _ _ (by
      rw [StableHlo.ternary_writes, Finset.mem_singleton]; exact fun e => hex ⟨3, e.symm⟩)).symm

/-- Launch 3's exit contents are its entry contents with max (a + b, 0) · w written to the result array. -/
theorem exit2 (c : Dev nD) : W8 m ρ c = layer2.result (W7 m ρ c) := by
  funext b
  by_cases hex : ∃ w, Proc.devRef .tc (Pipeline.arrRef spec2 w) = b
  · obtain ⟨w, rfl⟩ := hex
    rw [W8_arr]
    have h4 : ∀ w : Fin 4, (dat2 (V7 m ρ) c).arrAt w cfg2.N
        = layer2.result (W7 m ρ c) (Proc.devRef .tc (Pipeline.arrRef spec2 w)) := fun
      | 0 => (((dat2 (V7 m ρ) c).arrAt_in 0 rfl _).trans (A_eq2 (V7 m ρ) c 0)).trans
          (StableHlo.ternary_result_ne _ _ _ _ _ _ _ _ _ (W7 m ρ c) (by decide : main_v57 ≠ main_v59)).symm
      | 1 => (((dat2 (V7 m ρ) c).arrAt_in 1 rfl _).trans (A_eq2 (V7 m ρ) c 1)).trans
          (StableHlo.ternary_result_ne _ _ _ _ _ _ _ _ _ (W7 m ρ c) (by decide : main_v58 ≠ main_v59)).symm
      | 2 => (((dat2 (V7 m ρ) c).arrAt_in 2 rfl _).trans (A_eq2 (V7 m ρ) c 2)).trans
          (StableHlo.ternary_result_ne _ _ _ _ _ _ _ _ _ (W7 m ρ c) (by decide : main_arg7 ≠ main_v59)).symm
      | 3 => (Regions.final2 (V7 m ρ) c).trans (StableHlo.ternary_result main_v57 main_v58 main_arg7 main_v59 Layers.reluDense64 _ _ _ _ (W7 m ρ c)).symm
      | ⟨_ + 4, h⟩ => absurd h (Nat.not_lt.2 (Nat.le_add_left _ _))
    exact h4 w
  · have h1 : W8 m ρ c b = W7 m ρ c b := by unfold W8 Pipeline.withArrays; exact dif_neg hex
    rw [h1]
    exact (HloOp.result_of_not_mem _ _ (by
      rw [StableHlo.ternary_writes, Finset.mem_singleton]; exact fun e => hex ⟨3, e.symm⟩)).symm

/-- Launch 4's exit contents are its entry contents with max (a + b, 0) · w written to the result array. -/
theorem exit3 (c : Dev nD) : W10 m ρ c = layer3.result (W9 m ρ c) := by
  funext b
  by_cases hex : ∃ w, Proc.devRef .tc (Pipeline.arrRef spec3 w) = b
  · obtain ⟨w, rfl⟩ := hex
    rw [W10_arr]
    have h4 : ∀ w : Fin 4, (dat3 (V9 m ρ) c).arrAt w cfg3.N
        = layer3.result (W9 m ρ c) (Proc.devRef .tc (Pipeline.arrRef spec3 w)) := fun
      | 0 => (((dat3 (V9 m ρ) c).arrAt_in 0 rfl _).trans (A_eq3 (V9 m ρ) c 0)).trans
          (StableHlo.ternary_result_ne _ _ _ _ _ _ _ _ _ (W9 m ρ c) (by decide : main_v71 ≠ main_v73)).symm
      | 1 => (((dat3 (V9 m ρ) c).arrAt_in 1 rfl _).trans (A_eq3 (V9 m ρ) c 1)).trans
          (StableHlo.ternary_result_ne _ _ _ _ _ _ _ _ _ (W9 m ρ c) (by decide : main_v72 ≠ main_v73)).symm
      | 2 => (((dat3 (V9 m ρ) c).arrAt_in 2 rfl _).trans (A_eq3 (V9 m ρ) c 2)).trans
          (StableHlo.ternary_result_ne _ _ _ _ _ _ _ _ _ (W9 m ρ c) (by decide : main_arg9 ≠ main_v73)).symm
      | 3 => (Regions.final3 (V9 m ρ) c).trans (StableHlo.ternary_result main_v71 main_v72 main_arg9 main_v73 Layers.reluDense10 _ _ _ _ (W9 m ρ c)).symm
      | ⟨_ + 4, h⟩ => absurd h (Nat.not_lt.2 (Nat.le_add_left _ _))
    exact h4 w
  · have h1 : W10 m ρ c b = W9 m ρ c b := by unfold W10 Pipeline.withArrays; exact dif_neg hex
    rw [h1]
    exact (HloOp.result_of_not_mem _ _ (by
      rw [StableHlo.ternary_writes, Finset.mem_singleton]; exact fun e => hex ⟨3, e.symm⟩)).symm

/-- The contents after @main: the fold of @main's stretches and launches from the launch memory. -/
theorem boundaries (c : Dev nD) : W12 m ρ c =
    after hostOps4_1 (after hostOps4 (layer3.result (after hostOps3 (layer2.result (after hostOps2 (layer1.result (after hostOps1 (layer0.result (after hostOps0_2 (after hostOps0_1 (after hostOps0 (W0 m ρ c)))))))))))) := by
  show after hostOps4_1 (after hostOps4 (W10 m ρ c)) = _
  rw [exit3]
  show after hostOps4_1 (after hostOps4 (layer3.result (after hostOps3 (W8 m ρ c)))) = _
  rw [exit2]
  show after hostOps4_1 (after hostOps4 (layer3.result (after hostOps3 (layer2.result (after hostOps2 (W6 m ρ c)))))) = _
  rw [exit1]
  show after hostOps4_1 (after hostOps4 (layer3.result (after hostOps3 (layer2.result (after hostOps2 (layer1.result (after hostOps1 (W4 m ρ c)))))))) = _
  rw [exit0]

/-- The same fold, from the contents after the first stretch of host operations. -/
theorem boundaries_from_first (c : Dev nD) : W12 m ρ c =
    after hostOps4_1 (after hostOps4 (layer3.result (after hostOps3 (layer2.result (after hostOps2 (layer1.result (after hostOps1 (layer0.result (after hostOps0_2 (after hostOps0_1 (W1 m ρ c))))))))))) :=
  boundaries m ρ c

/-- The same fold, from the contents after the second stretch of host operations. -/
theorem boundaries_from_second (c : Dev nD) : W12 m ρ c =
    after hostOps4_1 (after hostOps4 (layer3.result (after hostOps3 (layer2.result (after hostOps2 (layer1.result (after hostOps1 (layer0.result (after hostOps0_2 (W2 m ρ c)))))))))) :=
  boundaries m ρ c

end Cert.KernelIdeal.Fold

end
-- ==== Proof.Stage0.lean ====
/-
  The first two stretches of host operations: the graph's index lists, degrees and guarded inverse square roots.

  From the 2 × 1600000 edge list the first stretch builds the two index lists of 1700000 entries — the edges' source
  nodes, respectively their target nodes, each followed by the 100000 self-loops 0, 1, …, 99999 —, counts each node's
  incoming entries by scattering ones onto the target list, compares the counts with 0 and takes their inverse square
  roots. Here: what each buffer a later operation reads holds after the stretch, as a term of the launch memory's edge
  list; the arguments are not written. The second stretch chooses, node by node, the inverse square root where the count
  is positive and 0 elsewhere; it writes nothing else a later operation reads.
-/
import proofs.«169848_j86457691668576_1_alg».proof.Proof.Gen.KernelIdeal.Frame
import Idealize.ShloMosaic.Lib.StableHlo.Run
import Idealize.ShloMosaic.PureOps.Ideal

set_option maxRecDepth 16384

noncomputable section

namespace Cert.KernelIdeal.Stage0

open Idealize.ShloMosaic Idealize.ShloMosaic.TcCoe Idealize.SL.Sem Idealize.ShloMosaic.StableHlo
open Cert.KernelIdeal Cert.KernelIdeal.Gen

/-- The edges' source nodes followed by the self-loops. -/
def srcIdx (E : IVec S2x1600000 32) : IVec S1700000 32 :=
  concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0

/-- The edges' target nodes followed by the self-loops. -/
def dstIdx (E : IVec S2x1600000 32) : IVec S1700000 32 :=
  concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0

/-- Each node's number of incoming entries, self-loop included: ones scattered onto the target list. -/
def degree (E : IVec S2x1600000 32) : FVec Ideal S100000 .f32 :=
  Host.scatterAdd (F := Ideal) scatter_S100000_S1700000x1_S1700000_n_0_0_1 (broadcastInDim S100000 ![] bcast_S_S100000 (constant S_ .f32 0x00000000#32)) (broadcastInDim S1700000x1 ![0] bcast_S1700000_S1700000x1_0 (dstIdx E)) (broadcastInDim S1700000 ![] bcast_S_S1700000 (constant S_ .f32 0x3F800000#32))

variable (m : (ℓ : Loc nD τ sig) → Buf (Elt Ideal) ℓ) (ρ : Dev nD → PrngReg)

theorem at_v3 (c : Dev nD) :
    W1 m ρ c (Proc.devRef .tc main_v3) = srcIdx (m ((c.tc : Thread nD τ).loc main_arg1)) := by
  show after hostOps0 (W0 m ρ c) _ = _
  after_results_simp
  unfold srcIdx
  rfl

theorem at_v6 (c : Dev nD) :
    W1 m ρ c (Proc.devRef .tc main_v6) = dstIdx (m ((c.tc : Thread nD τ).loc main_arg1)) := by
  show after hostOps0 (W0 m ρ c) _ = _
  after_results_simp
  unfold dstIdx
  rfl

theorem at_v12 (c : Dev nD) :
    W1 m ρ c (Proc.devRef .tc main_v12)
      = cmpf (F := Ideal) .ogt (degree (m ((c.tc : Thread nD τ).loc main_arg1))) (broadcastInDim S100000 ![] bcast_S_S100000 (constant S_ .f32 0x00000000#32)) := by
  show after hostOps0 (W0 m ρ c) _ = _
  after_results_simp
  unfold degree dstIdx
  rfl

theorem at_v13 (c : Dev nD) :
    W1 m ρ c (Proc.devRef .tc main_v13) = Host.rsqrt (F := Ideal) (degree (m ((c.tc : Thread nD τ).loc main_arg1))) := by
  show after hostOps0 (W0 m ρ c) _ = _
  after_results_simp
  unfold degree dstIdx
  rfl

theorem at_cst_2 (c : Dev nD) :
    W1 m ρ c (Proc.devRef .tc main_cst_2) = constant (F := Ideal) S_ .f32 0x00000000#32 := by
  show after hostOps0 (W0 m ρ c) _ = _
  after_results_simp

theorem at_arg0 (c : Dev nD) : W1 m ρ c (Proc.devRef .tc main_arg0) = m ((c.tc : Thread nD τ).loc main_arg0) := by
  show after hostOps0 (W0 m ρ c) _ = _
  after_results_simp
theorem at_arg1 (c : Dev nD) : W1 m ρ c (Proc.devRef .tc main_arg1) = m ((c.tc : Thread nD τ).loc main_arg1) := by
  show after hostOps0 (W0 m ρ c) _ = _
  after_results_simp
theorem at_arg2 (c : Dev nD) : W1 m ρ c (Proc.devRef .tc main_arg2) = m ((c.tc : Thread nD τ).loc main_arg2) := by
  show after hostOps0 (W0 m ρ c) _ = _
  after_results_simp
theorem at_arg3 (c : Dev nD) : W1 m ρ c (Proc.devRef .tc main_arg3) = m ((c.tc : Thread nD τ).loc main_arg3) := by
  show after hostOps0 (W0 m ρ c) _ = _
  after_results_simp
theorem at_arg4 (c : Dev nD) : W1 m ρ c (Proc.devRef .tc main_arg4) = m ((c.tc : Thread nD τ).loc main_arg4) := by
  show after hostOps0 (W0 m ρ c) _ = _
  after_results_simp
theorem at_arg5 (c : Dev nD) : W1 m ρ c (Proc.devRef .tc main_arg5) = m ((c.tc : Thread nD τ).loc main_arg5) := by
  show after hostOps0 (W0 m ρ c) _ = _
  after_results_simp
theorem at_arg6 (c : Dev nD) : W1 m ρ c (Proc.devRef .tc main_arg6) = m ((c.tc : Thread nD τ).loc main_arg6) := by
  show after hostOps0 (W0 m ρ c) _ = _
  after_results_simp
theorem at_arg7 (c : Dev nD) : W1 m ρ c (Proc.devRef .tc main_arg7) = m ((c.tc : Thread nD τ).loc main_arg7) := by
  show after hostOps0 (W0 m ρ c) _ = _
  after_results_simp
theorem at_arg8 (c : Dev nD) : W1 m ρ c (Proc.devRef .tc main_arg8) = m ((c.tc : Thread nD τ).loc main_arg8) := by
  show after hostOps0 (W0 m ρ c) _ = _
  after_results_simp
theorem at_arg9 (c : Dev nD) : W1 m ρ c (Proc.devRef .tc main_arg9) = m ((c.tc : Thread nD τ).loc main_arg9) := by
  show after hostOps0 (W0 m ρ c) _ = _
  after_results_simp
theorem at_arg10 (c : Dev nD) : W1 m ρ c (Proc.devRef .tc main_arg10) = m ((c.tc : Thread nD τ).loc main_arg10) := by
  show after hostOps0 (W0 m ρ c) _ = _
  after_results_simp

/-! ## The second stretch: the inverse square roots, guarded -/

/-- 1 / sqrt (degree) where the degree is positive, 0 elsewhere. -/
def invSqrtDeg (E : IVec S2x1600000 32) : FVec Ideal S100000 .f32 :=
  select (cmpf (F := Ideal) .ogt (degree E) (broadcastInDim S100000 ![] bcast_S_S100000 (constant S_ .f32 0x00000000#32))) (Host.rsqrt (degree E)) (broadcastInDim S100000 ![] bcast_S_S100000 (id (constant S_ .f32 0x00000000#32)))

/-- The guarded choice, from whatever the three buffers it reads hold. -/
theorem where_val (W : Valuation τ sig (Elt Ideal)) (p : IVec S100000 1) (r : FVec Ideal S100000 .f32) (z : FVec Ideal S_ .f32)
    (e12 : W (Proc.devRef .tc main_v12) = p) (e13 : W (Proc.devRef .tc main_v13) = r) (ec : W (Proc.devRef .tc main_cst_2) = z) :
    after (hostOps0_1 (F := Ideal)) W (Proc.devRef .tc main_v14)
      = select p r (broadcastInDim S100000 ![] bcast_S_S100000 (id z)) := by
  after_results_simp
  rw [e12, e13, ec]
  rfl

theorem second_v14 (c : Dev nD) :
    W2 m ρ c (Proc.devRef .tc main_v14) = invSqrtDeg (m ((c.tc : Thread nD τ).loc main_arg1)) :=
  (where_val (W1 m ρ c) _ _ _ (at_v12 m ρ c) (at_v13 m ρ c) (at_cst_2 m ρ c)).trans (by unfold invSqrtDeg; rfl)

theorem second_keep_main_v3 (c : Dev nD) : W2 m ρ c (Proc.devRef .tc main_v3) = W1 m ρ c (Proc.devRef .tc main_v3) := by
  show after hostOps0_1 (W1 m ρ c) _ = _
  after_results_simp
theorem second_keep_main_v6 (c : Dev nD) : W2 m ρ c (Proc.devRef .tc main_v6) = W1 m ρ c (Proc.devRef .tc main_v6) := by
  show after hostOps0_1 (W1 m ρ c) _ = _
  after_results_simp
theorem second_keep_main_arg0 (c : Dev nD) : W2 m ρ c (Proc.devRef .tc main_arg0) = W1 m ρ c (Proc.devRef .tc main_arg0) := by
  show after hostOps0_1 (W1 m ρ c) _ = _
  after_results_simp
theorem second_keep_main_arg2 (c : Dev nD) : W2 m ρ c (Proc.devRef .tc main_arg2) = W1 m ρ c (Proc.devRef .tc main_arg2) := by
  show after hostOps0_1 (W1 m ρ c) _ = _
  after_results_simp
theorem second_keep_main_arg3 (c : Dev nD) : W2 m ρ c (Proc.devRef .tc main_arg3) = W1 m ρ c (Proc.devRef .tc main_arg3) := by
  show after hostOps0_1 (W1 m ρ c) _ = _
  after_results_simp
theorem second_keep_main_arg4 (c : Dev nD) : W2 m ρ c (Proc.devRef .tc main_arg4) = W1 m ρ c (Proc.devRef .tc main_arg4) := by
  show after hostOps0_1 (W1 m ρ c) _ = _
  after_results_simp
theorem second_keep_main_arg5 (c : Dev nD) : W2 m ρ c (Proc.devRef .tc main_arg5) = W1 m ρ c (Proc.devRef .tc main_arg5) := by
  show after hostOps0_1 (W1 m ρ c) _ = _
  after_results_simp
theorem second_keep_main_arg6 (c : Dev nD) : W2 m ρ c (Proc.devRef .tc main_arg6) = W1 m ρ c (Proc.devRef .tc main_arg6) := by
  show after hostOps0_1 (W1 m ρ c) _ = _
  after_results_simp
theorem second_keep_main_arg7 (c : Dev nD) : W2 m ρ c (Proc.devRef .tc main_arg7) = W1 m ρ c (Proc.devRef .tc main_arg7) := by
  show after hostOps0_1 (W1 m ρ c) _ = _
  after_results_simp
theorem second_keep_main_arg8 (c : Dev nD) : W2 m ρ c (Proc.devRef .tc main_arg8) = W1 m ρ c (Proc.devRef .tc main_arg8) := by
  show after hostOps0_1 (W1 m ρ c) _ = _
  after_results_simp
theorem second_keep_main_arg9 (c : Dev nD) : W2 m ρ c (Proc.devRef .tc main_arg9) = W1 m ρ c (Proc.devRef .tc main_arg9) := by
  show after hostOps0_1 (W1 m ρ c) _ = _
  after_results_simp
theorem second_keep_main_arg10 (c : Dev nD) : W2 m ρ c (Proc.devRef .tc main_arg10) = W1 m ρ c (Proc.devRef .tc main_arg10) := by
  show after hostOps0_1 (W1 m ρ c) _ = _
  after_results_simp

theorem second_v3 (c : Dev nD) : W2 m ρ c (Proc.devRef .tc main_v3) = srcIdx (m ((c.tc : Thread nD τ).loc main_arg1)) :=
  (second_keep_main_v3 m ρ c).trans (at_v3 m ρ c)
theorem second_v6 (c : Dev nD) : W2 m ρ c (Proc.devRef .tc main_v6) = dstIdx (m ((c.tc : Thread nD τ).loc main_arg1)) :=
  (second_keep_main_v6 m ρ c).trans (at_v6 m ρ c)
theorem second_arg0 (c : Dev nD) : W2 m ρ c (Proc.devRef .tc main_arg0) = m ((c.tc : Thread nD τ).loc main_arg0) :=
  (second_keep_main_arg0 m ρ c).trans (at_arg0 m ρ c)
theorem second_arg2 (c : Dev nD) : W2 m ρ c (Proc.devRef .tc main_arg2) = m ((c.tc : Thread nD τ).loc main_arg2) :=
  (second_keep_main_arg2 m ρ c).trans (at_arg2 m ρ c)
theorem second_arg3 (c : Dev nD) : W2 m ρ c (Proc.devRef .tc main_arg3) = m ((c.tc : Thread nD τ).loc main_arg3) :=
  (second_keep_main_arg3 m ρ c).trans (at_arg3 m ρ c)
theorem second_arg4 (c : Dev nD) : W2 m ρ c (Proc.devRef .tc main_arg4) = m ((c.tc : Thread nD τ).loc main_arg4) :=
  (second_keep_main_arg4 m ρ c).trans (at_arg4 m ρ c)
theorem second_arg5 (c : Dev nD) : W2 m ρ c (Proc.devRef .tc main_arg5) = m ((c.tc : Thread nD τ).loc main_arg5) :=
  (second_keep_main_arg5 m ρ c).trans (at_arg5 m ρ c)
theorem second_arg6 (c : Dev nD) : W2 m ρ c (Proc.devRef .tc main_arg6) = m ((c.tc : Thread nD τ).loc main_arg6) :=
  (second_keep_main_arg6 m ρ c).trans (at_arg6 m ρ c)
theorem second_arg7 (c : Dev nD) : W2 m ρ c (Proc.devRef .tc main_arg7) = m ((c.tc : Thread nD τ).loc main_arg7) :=
  (second_keep_main_arg7 m ρ c).trans (at_arg7 m ρ c)
theorem second_arg8 (c : Dev nD) : W2 m ρ c (Proc.devRef .tc main_arg8) = m ((c.tc : Thread nD τ).loc main_arg8) :=
  (second_keep_main_arg8 m ρ c).trans (at_arg8 m ρ c)
theorem second_arg9 (c : Dev nD) : W2 m ρ c (Proc.devRef .tc main_arg9) = m ((c.tc : Thread nD τ).loc main_arg9) :=
  (second_keep_main_arg9 m ρ c).trans (at_arg9 m ρ c)
theorem second_arg10 (c : Dev nD) : W2 m ρ c (Proc.devRef .tc main_arg10) = m ((c.tc : Thread nD τ).loc main_arg10) :=
  (second_keep_main_arg10 m ρ c).trans (at_arg10 m ρ c)

end Cert.KernelIdeal.Stage0

end
-- ==== Proof.Tail.lean ====
/-
  The last stretch of host operations: a row-wise log-softmax.

  From the 512 × 10 pooled features x the last stretch computes x − max − log Σ exp (x − max), the maximum and the sum
  taken along each row (the maximum once more against −∞, as the host program states it). Here: the result buffer
  after the stretch is that function of whatever the pooled-features buffer holds.
-/
import proofs.«169848_j86457691668576_1_alg».proof.Proof.Gen.KernelIdeal.Frame
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-- x − rowmax x − log (Σ exp (x − rowmax x)), row by row. -/
def logSoftmax (x : FVec Ideal S512x10 .f32) : FVec Ideal S512x10 .f32 :=
  subf (subf x (broadcastInDim S512x10 ![0, 1] bcast_S512x1_S512x10_0_1 (broadcastInDim S512x1 ![0] bcast_S512_S512x1_0 (maximumf (broadcastInDim S512 ![] bcast_S_S512 (constant S_ .f32 0xFF800000#32)) (Host.reduce FloatOps.maximumf x (constant S_ .f32 0xFF800000#32) reducesTo_S512x10_S512_d1 h_S_))))) (broadcastInDim S512x10 ![0, 1] bcast_S512x1_S512x10_0_1 (Host.log (broadcastInDim S512x1 ![0] bcast_S512_S512x1_0 (Host.reduceAdd (Host.exp (subf x (broadcastInDim S512x10 ![0, 1] bcast_S512x1_S512x10_0_1 (broadcastInDim S512x1 ![0] bcast_S512_S512x1_0 (maximumf (broadcastInDim S512 ![] bcast_S_S512 (constant S_ .f32 0xFF800000#32)) (Host.reduce FloatOps.maximumf x (constant S_ .f32 0xFF800000#32) reducesTo_S512x10_S512_d1 h_S_)))))) (constant S_ .f32 0x00000000#32) reducesTo_S512x10_S512_d1 h_S_))))

/-- After the last stretch the result buffer holds the log-softmax of the pooled features. -/
theorem tail_val (W : Valuation τ sig (Elt Ideal)) :
    after (hostOps4_1 (F := Ideal)) W (Proc.devRef .tc main_v101) = logSoftmax (W (Proc.devRef .tc main_v100)) := by
  after_results_simp
  generalize W (Proc.devRef .tc main_v100) = x
  unfold logSoftmax
  rfl

end Cert.KernelIdeal.Tail

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.KernelTerm.lean ====
/-
  The idealized kernel's result is the reference's term of the same arguments.

  The contents after the kernel's @main are the fold of one straight line of operations from the launch memory, each
  launch one operation writing its layer's function of the arrays it read. Read at the result buffer that fold is a
  composed term of the arguments: the gathers, scatters, products and the final log-softmax in the order @main states
  them. The reference's run ends at such a term too, and the two are the same term: each launch's function is the
  reference's own product of the clamped, biased aggregate with the weights; where the kernel's @main views a bias
  vector as one row by a reshape the reference broadcasts it along axis 1, which is the same array; and the
  normalisation column the kernel computes once is the expression the reference writes out at each layer. The first two
  stretches' buffers (the index lists, the guarded inverse square roots of the degrees) enter as the terms of the edge
  list read off those stretches alone, and the last stretch as the log-softmax of the pooled features.
-/
import proofs.«169848_j86457691668576_1_alg».proof.Proof.KernelFold
import proofs.«169848_j86457691668576_1_alg».proof.Proof.Stage0
import proofs.«169848_j86457691668576_1_alg».proof.Proof.Tail
import proofs.«169848_j86457691668576_1_alg».proof.Proof.RefRun
import proofs.«169848_j86457691668576_1_alg».proof.Proof.LibRowCast

set_option maxRecDepth 16384

noncomputable section

namespace Cert.KernelIdeal.Term

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 64000000 in
/-- From memories that agree on the arguments, the kernel's result buffer ends at the reference's term. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    W12 m ρ c (Proc.devRef .tc main_v101) = Cert.ReferenceIdeal.ValueP.res_main_v113 (F := Ideal) m' c := by
  have l3 := Stage0.second_v3 m ρ c
  have l6 := Stage0.second_v6 m ρ c
  have l14 := Stage0.second_v14 m ρ c
  have a0 := Stage0.second_arg0 m ρ c
  have a2 := Stage0.second_arg2 m ρ c
  have a3 := Stage0.second_arg3 m ρ c
  have a4 := Stage0.second_arg4 m ρ c
  have a5 := Stage0.second_arg5 m ρ c
  have a6 := Stage0.second_arg6 m ρ c
  have a7 := Stage0.second_arg7 m ρ c
  have a8 := Stage0.second_arg8 m ρ c
  have a9 := Stage0.second_arg9 m ρ c
  have a10 := Stage0.second_arg10 m ρ c
  rw [Fold.boundaries_from_second, Tail.tail_val]
  unfold Cert.ReferenceIdeal.ValueP.res_main_v113
  rw [h0, h1, h2, h3, h4, h5, h6, h7, h8, h9, h10]
  rw [← RowCast.shapeCast_row_eq_broadcastInDim (m ((c.tc : Thread nD τ).loc main_arg4)) Gen.shapeCasts_S64_S1x64 Cert.ReferenceIdeal.Gen.bcast_S64_S1x64_1,
    ← RowCast.shapeCast_row_eq_broadcastInDim (m ((c.tc : Thread nD τ).loc main_arg6)) Gen.shapeCasts_S64_S1x64 Cert.ReferenceIdeal.Gen.bcast_S64_S1x64_1,
    ← RowCast.shapeCast_row_eq_broadcastInDim (m ((c.tc : Thread nD τ).loc main_arg8)) Gen.shapeCasts_S64_S1x64 Cert.ReferenceIdeal.Gen.bcast_S64_S1x64_1]
  generalize W2 m ρ c = Wc at *
  after_results_simp
  rw [l3, l6, l14]
  try rw [a0]
  try rw [a2]
  try rw [a3]
  try rw [a4]
  try rw [a5]
  try rw [a6]
  try rw [a7]
  try rw [a8]
  try rw [a9]
  try rw [a10]
  unfold Tail.logSoftmax Stage0.invSqrtDeg Stage0.degree Stage0.srcIdx Stage0.dstIdx Layers.dense128 Layers.reluDense64 Layers.reluDense10
  rfl

end Cert.KernelIdeal.Term

end
-- ==== Proof.lean ====
/-
  The certificate of a four-layer graph convolution network: the Pallas kernels' program against the plain one.

  Both programs normalise the graph (self-loops added, degrees by a scatter of ones, inverse square roots, a per-edge
  weight), then four times transform every node's features by a dense layer, gather them along the edges, weight them
  and scatter-add them into the target nodes; a bias and a clamp at zero follow each of the first three aggregations,
  a bias the fourth; the nodes are mean-pooled per graph and a row-wise log-softmax ends it. The kernel's program
  computes the dense layers in four Pallas launches over strips of 10000 rows, the bias and clamp of a layer fused into
  the next layer's launch; the reference computes them as whole-batch products.

  The three frames: the two kernel programs' are generated; the reference's is its run with the result dropped. The
  idealisation changed no operation, so there is nothing to preserve. The algebraic claim: on the extended reals the
  kernel's run ends with its result buffer at the fold of its host operations and launches from the launch memory
  (each launch writing its layer's function of the whole batch), the reference's at its operations' composed term, and
  from memories that agree on the arguments the two are one term. No finiteness is used: no law beyond the
  entry-by-entry reading of the strips is needed.
-/
import proofs.«169848_j86457691668576_1_alg».proof.Defs
import proofs.«169848_j86457691668576_1_alg».proof.Proof.Gen.Kernel
import proofs.«169848_j86457691668576_1_alg».proof.Proof.Gen.Kernel.Frame
import proofs.«169848_j86457691668576_1_alg».proof.Proof.Gen.KernelIdeal
import proofs.«169848_j86457691668576_1_alg».proof.Proof.Gen.KernelIdeal.Frame
import proofs.«169848_j86457691668576_1_alg».proof.Proof.Gen.ReferenceIdeal
import proofs.«169848_j86457691668576_1_alg».proof.Proof.Gen.Pre_finite_inputs
import proofs.«169848_j86457691668576_1_alg».proof.Proof.RefRun
import proofs.«169848_j86457691668576_1_alg».proof.Proof.KernelRun
import proofs.«169848_j86457691668576_1_alg».proof.Proof.KernelTerm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end, the kernel's result buffer at the contents after its last host operation, the reference's at its
    composed term; from memories agreeing on the arguments these are equal. -/
theorem algebraic : Cert.algebraic_KernelIdeal_ReferenceIdeal := by
  intro m ρ m' ρ' _ hagree
  refine ⟨fun c => Cert.KernelIdeal.Gen.W12 m ρ c (Proc.devRef .tc Cert.KernelIdeal.main_v101),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  exact (Cert.KernelIdeal.Term.result_eq m ρ m' c h0 h1 h2 h3 h4 h5 h6 h7 h8 h9 h10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
